-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x128x512 : Shape := ⟨3, ![8, 128, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x128x512 : S_.BroadcastsInDim S8x128x512 (![] : Fin 0 → Fin S8x128x512.rank)
  reducesTo_S8x128x512_S_d0_1_2 : S8x128x512.ReducesTo [0, 1, 2] S_
  bcast_S_S512x640 : S_.BroadcastsInDim S512x640 (![] : Fin 0 → Fin S512x640.rank)
  reducesTo_S512x640_S_d0_1 : S512x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S512x640 .f32) (main_arg5 : FVec F S640 .f32) (main_arg6 : FVec F S640x1024 .f32) (main_arg7 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S512x640 .f32 := Host.absf main_arg4
  let main_cst_6 : FVec F S_ .f32 := constant S_ .f32 0x7F800000#32
  let main_v20 : FVec F S512x640 .f32 := broadcastInDim S512x640 ![] bcast_S_S512x640 main_cst_6
  let main_v21 : IVec S512x640 1 := cmpf .olt main_v19 main_v20
  let main_c_7 : IVec S_ 1 := constantI S_ 1 1#1
  let main_v22 : IVec S_ 1 := (fun x v => Host.reduce IntOp.andi x v reducesTo_S512x640_S_d0_1 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S640x1024 .f32 := Host.absf main_arg6
  let main_cst_10 : FVec F S_ .f32 := constant S_ .f32 0x7F800000#32
  let main_v30 : FVec F S640x1024 .f32 := broadcastInDim S640x1024 ![] bcast_S_S640x1024 main_cst_10
  let main_v31 : IVec S640x1024 1 := cmpf .olt main_v29 main_v30
  let main_c_11 : IVec S_ 1 := constantI S_ 1 1#1
  let main_v32 : IVec S_ 1 := (fun x v => Host.reduce IntOp.andi x v reducesTo_S640x1024_S_d0_1 h_S_) main_v31 main_c_11
  let main_v33 : IVec S_ 1 := andi main_v28 main_v32
  fn_part2 (F := F) main_arg7 main_v33

def fn {F : FTy → Type} [FloatOps F] (main_arg0 : FVec F S8x256x512 .f32) (main_arg1 : FVec F S8x128x512 .f32) (main_arg2 : FVec F S512x640 .f32) (main_arg3 : FVec F S640 .f32) (main_arg4 : FVec F S512x640 .f32) (main_arg5 : FVec F S640 .f32) (main_arg6 : FVec F S640x1024 .f32) (main_arg7 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x128x512 .f32 := Host.absf main_arg1
  let main_cst_0 : FVec F S_ .f32 := constant S_ .f32 0x7F800000#32
  let main_v5 : FVec F S8x128x512 .f32 := broadcastInDim S8x128x512 ![] bcast_S_S8x128x512 main_cst_0
  let main_v6 : IVec S8x128x512 1 := cmpf .olt main_v4 main_v5
  let main_c_1 : IVec S_ 1 := constantI S_ 1 1#1
  let main_v7 : IVec S_ 1 := (fun x v => Host.reduce IntOp.andi x v reducesTo_S8x128x512_S_d0_1_2 h_S_) main_v6 main_c_1
  let main_v8 : IVec S_ 1 := andi main_v3 main_v7
  let main_v9 : FVec F S512x640 .f32 := Host.absf main_arg2
  let main_cst_2 : FVec F S_ .f32 := constant S_ .f32 0x7F800000#32
  let main_v10 : FVec F S512x640 .f32 := broadcastInDim S512x640 ![] bcast_S_S512x640 main_cst_2
  let main_v11 : IVec S512x640 1 := cmpf .olt main_v9 main_v10
  let main_c_3 : IVec S_ 1 := constantI S_ 1 1#1
  let main_v12 : IVec S_ 1 := (fun x v => Host.reduce IntOp.andi x v reducesTo_S512x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_arg6 main_arg7 main_v13 main_v16
-- ==== Kernel.lean ====
abbrev S8x256x512 : Shape := ⟨3, ![8, 256, 512]⟩
abbrev S8x128x512 : Shape := ⟨3, ![8, 128, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S8x256x128x1024 : Shape := ⟨4, ![8, 256, 128, 1024]⟩
abbrev S1x8x512 : Shape := ⟨3, ![1, 8, 512]⟩
abbrev S1x128x512 : Shape := ⟨3, ![1, 128, 512]⟩
abbrev S1x8x128x1024 : Shape := ⟨4, ![1, 8, 128, 1024]⟩
abbrev S8x512 : Shape := ⟨2, ![8, 512]⟩
abbrev S128x512 : Shape := ⟨2, ![128, 512]⟩
abbrev S8x640 : Shape := ⟨2, ![8, 640]⟩
abbrev S1x640 : Shape := ⟨2, ![1, 640]⟩
abbrev S128x640 : Shape := ⟨2, ![128, 640]⟩
abbrev S8x1x640 : Shape := ⟨3, ![8, 1, 640]⟩
abbrev S1x128x640 : Shape := ⟨3, ![1, 128, 640]⟩
abbrev S8x128x640 : Shape := ⟨3, ![8, 128, 640]⟩
abbrev S1024x640 : Shape := ⟨2, ![1024, 640]⟩
abbrev S1024x1024 : Shape := ⟨2, ![1024, 1024]⟩
abbrev S1x1024 : Shape := ⟨2, ![1, 1024]⟩
abbrev S8x128x1024 : Shape := ⟨3, ![8, 128, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8x256x512, .f32⟩
  | .hbm, ⟨1, _⟩ => ⟨S8x128x512, .f32⟩
  | .hbm, ⟨2, _⟩ => ⟨S512x640, .f32⟩
  | .hbm, ⟨3, _⟩ => ⟨S640, .f32⟩
  | .hbm, ⟨4, _⟩ => ⟨S512x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S8x256x128x1024, .f32⟩
  | .local _ .vmem, ⟨0, _⟩ => ⟨S1x8x512, .f32⟩
  | .local _ .vmem, ⟨1, _⟩ => ⟨S1x8x512, .f32⟩
  | .local _ .vmem, ⟨2, _⟩ => ⟨S1x128x512, .f32⟩
  | .local _ .vmem, ⟨3, _⟩ => ⟨S1x128x512, .f32⟩
  | .local _ .vmem, ⟨4, _⟩ => ⟨S512x640, .f32⟩
  | .local _ .vmem, ⟨5, _⟩ => ⟨S640, .f32⟩
  | .local _ .vmem, ⟨6, _⟩ => ⟨S512x640, .f32⟩
  | .local _ .vmem, ⟨7, _⟩ => ⟨S640, .f32⟩
  | .local _ .vmem, ⟨8, _⟩ => ⟨S640x1024, .f32⟩
  | .local _ .vmem, ⟨9, _⟩ => ⟨S1024, .f32⟩
  | .local _ .vmem, ⟨10, _⟩ => ⟨S1x8x128x1024, .f32⟩
  | .local _ .vmem, ⟨11, _⟩ => ⟨S1x8x128x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S640x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  bitsLt_bf16_f32 : FTy.bits .bf16 < FTy.bits .f32
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512x640_S512x640_0_0 : ∀ a, (![0, 0] : Fin 2 → Nat) a + S512x640.size a ≤ S512x640.size a
  h_S512x640 : 0 < S512x640.numel
  inb_S640x1024_S640x1024_0_0 : ∀ a, (![0, 0] : Fin 2 → Nat) a + S640x1024.size a ≤ S640x1024.size a
  h_S640x1024 : 0 < S640x1024.numel
  inb_S640_S640_0 : ∀ a, (![0] : Fin 1 → Nat) a + S640.size a ≤ S640.size a
  h_S640 : 0 < S640.numel
  inb_S1024_S1024_0 : ∀ a, (![0] : Fin 1 → Nat) a + S1024.size a ≤ S1024.size a
  h_S1024 : 0 < S1024.numel
  shapeCasts_S640_S1x640 : S640.ShapeCasts S1x640
  broadcasts_S1x640_S8x640 : S1x640.Broadcasts S8x640
  broadcasts_S1x640_S128x640 : S1x640.Broadcasts S128x640
  shapeCasts_S8x640_S8x1x640 : S8x640.ShapeCasts S8x1x640
  shapeCasts_S128x640_S1x128x640 : S128x640.ShapeCasts S1x128x640
  broadcasts_S8x1x640_S8x128x640 : S8x1x640.Broadcasts S8x128x640
  broadcasts_S1x128x640_S8x128x640 : S1x128x640.Broadcasts S8x128x640
  shapeCasts_S8x128x640_S1024x640 : S8x128x640.ShapeCasts S1024x640
  shapeCasts_S1024_S1x1024 : S1024.ShapeCasts S1x1024
  broadcasts_S1x1024_S1024x1024 : S1x1024.Broadcasts S1024x1024
  shapeCasts_S1024x1024_S8x128x1024 : S1024x1024.ShapeCasts S8x128x1024
  inb_S1x8x128x1024_S1x8x128x1024_0_0_0_0 : ∀ a, (![0, 0, 0, 0] : Fin 4 → Nat) a + S1x8x128x1024.size a ≤ S1x8x128x1024.size a
  h_S1x8x128x1024 : 0 < S1x8x128x1024.numel
  shapeCasts_S1x8x128x1024_S8x128x1024 : S1x8x128x1024.ShapeCasts S8x128x1024
  shapeCasts_S8x128x1024_S1x8x128x1024 : S8x128x1024.ShapeCasts S1x8x128x1024
  dot_S8x512_S512x640_S8x640_1_0_0_1_n_n_wf : DotDims.WF S8x512 S512x640 S8x640 [1] [0] [0] [1] [] []
  dot_S128x512_S512x640_S128x640_1_0_0_1_n_n_wf : DotDims.WF S128x512 S512x640 S128x640 [1] [0] [0] [1] [] []
  dot_S1024x640_S640x1024_S1024x1024_1_0_0_1_n_n_wf : DotDims.WF S1024x640 S640x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512.size a ≤ S8x256x512.size a
  hwx0_0 : ∀ i : grid0.Coords, EltTy.bits .f32 = 32 ∨ (Rect.block (s := S8x256x512) S1x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x128x512.size a
  hwx0_1 : ∀ i : grid0.Coords, EltTy.bits .f32 = 32 ∨ (Rect.block (s := S8x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .f32 = 32 ∨ (Rect.block (s := S512x640) S512x640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640.size a ≤ S640.size a
  hwx0_3 : ∀ i : grid0.Coords, EltTy.bits .f32 = 32 ∨ (Rect.block (s := S640) S640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x640.size a ≤ S512x640.size a
  hwx0_4 : ∀ i : grid0.Coords, EltTy.bits .f32 = 32 ∨ (Rect.block (s := S512x640) S512x640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640.size a ≤ S640.size a
  hwx0_5 : ∀ i : grid0.Coords, EltTy.bits .f32 = 32 ∨ (Rect.block (s := S640) S640.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S640x1024.size a ≤ S640x1024.size a
  hwx0_6 : ∀ i : grid0.Coords, EltTy.bits .f32 = 32 ∨ (Rect.block (s := S640x1024) S640x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128x1024.size a ≤ S8x256x128x1024.size a
  hwx0_8 : ∀ i : grid0.Coords, EltTy.bits .f32 = 32 ∨ (Rect.block (s := S8x256x128x1024) S1x8x128x1024.size (cc0_transform_8 i) (hinb0_8 i)).WholeWords (EltTy.packing .f32)

variable [Facts₀]

def dot_S8x512_S512x640_S8x640_1_0_0_1_n_n : DotDims S8x512 S512x640 S8x640 where
  lhsContracting := [1]
  rhsContracting := [0]
  lhsNonContracting := [0]
  rhsNonContracting := [1]
  lhsBatch := []
  rhsBatch := []
  wf := dot_S8x512_S512x640_S8x640_1_0_0_1_n_n_wf
def dot_S128x512_S512x640_S128x640_1_0_0_1_n_n : DotDims S128x512 S512x640 S128x640 where
  lhsContracting := [1]
  rhsContracting := [0]
  lhsNonContracting := [0]
  rhsNonContracting := [1]
  lhsBatch := []
  rhsBatch := []
  wf := dot_S128x512_S512x640_S128x640_1_0_0_1_n_n_wf
def dot_S1024x640_S640x1024_S1024x1024_1_0_0_1_n_n : DotDims S1024x640 S640x1024 S1024x1024 where
  lhsContracting := [1]
  rhsContracting := [0]
  lhsNonContracting := [0]
  rhsNonContracting := [1]
  lhsBatch := []
  rhsBatch := []
  wf := dot_S1024x640_S640x1024_S1024x1024_1_0_0_1_n_n_wf

abbrev win0_0 : Pipeline.Window sig grid0 :=
  Pipeline.Window.ofSpec (Memref.whole main_arg0) S1x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S640x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x8x128x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x128x512 : Shape := ⟨3, ![8, 128, 512]⟩
abbrev S512x640 : Shape := ⟨2, ![512, 640]⟩
abbrev S640 : Shape := ⟨1, ![640]⟩
abbrev S640x1024 : Shape := ⟨2, ![640, 1024]⟩
abbrev S1024 : Shape := ⟨1, ![1024]⟩
abbrev S8x256x640 : Shape := ⟨3, ![8, 256, 640]⟩
abbrev S1x1x640 : Shape := ⟨3, ![1, 1, 640]⟩
abbrev S8x128x640 : Shape := ⟨3, ![8, 128, 640]⟩
abbrev S8x256x1x640 : Shape := ⟨4, ![8, 256, 1, 640]⟩
abbrev S8x1x128x640 : Shape := ⟨4, ![8, 1, 128, 640]⟩
abbrev S8x256x128x640 : Shape := ⟨4, ![8, 256, 128, 640]⟩
abbrev S8x256x128x1024 : Shape := ⟨4, ![8, 256, 128, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x128x512, .f32⟩
  | .hbm, ⟨2, _⟩ => ⟨S512x640, .f32⟩
  | .hbm, ⟨3, _⟩ => ⟨S640, .f32⟩
  | .hbm, ⟨4, _⟩ => ⟨S512x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S8x256x640, .f32⟩
  | .hbm, ⟨9, _⟩ => ⟨S1x1x640, .f32⟩
  | .hbm, ⟨10, _⟩ => ⟨S8x256x640, .f32⟩
  | .hbm, ⟨11, _⟩ => ⟨S8x256x640, .f32⟩
  | .hbm, ⟨12, _⟩ => ⟨S8x128x640, .f32⟩
  | .hbm, ⟨13, _⟩ => ⟨S1x1x640, .f32⟩
  | .hbm, ⟨14, _⟩ => ⟨S8x128x640, .f32⟩
  | .hbm, ⟨15, _⟩ => ⟨S8x128x640, .f32⟩
  | .hbm, ⟨16, _⟩ => ⟨S8x256x1x640, .f32⟩
  | .hbm, ⟨17, _⟩ => ⟨S8x1x128x640, .f32⟩
  | .hbm, ⟨18, _⟩ => ⟨S8x256x128x640, .f32⟩
  | .hbm, ⟨19, _⟩ => ⟨S8x256x128x640, .f32⟩
  | .hbm, ⟨20, _⟩ => ⟨S8x256x128x640, .f32⟩
  | .hbm, ⟨21, _⟩ => ⟨S8x256x128x640, .f32⟩
  | .hbm, ⟨22, _⟩ => ⟨S8x256x128x1024, .f32⟩
  | .hbm, ⟨23, _⟩ => ⟨S1x1x1x1024, .f32⟩
  | .hbm, ⟨24, _⟩ => ⟨S8x256x128x1024, .f32⟩
  | .hbm, ⟨25, _⟩ => ⟨S8x256x128x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S640_S1x1x640_2 : S640.BroadcastsInDim S1x1x640 (![2] : Fin 1 → Fin S1x1x640.rank)
  bcast_S1x1x640_S8x256x640_0_1_2 : S1x1x640.BroadcastsInDim S8x256x640 (![0, 1, 2] : Fin 3 → Fin S8x256x640.rank)
  bcast_S1x1x640_S8x128x640_0_1_2 : S1x1x640.BroadcastsInDim S8x128x640 (![0, 1, 2] : Fin 3 → Fin S8x128x640.rank)
  bcast_S8x256x640_S8x256x1x640_0_1_3 : S8x256x640.BroadcastsInDim S8x256x1x640 (![0, 1, 3] : Fin 3 → Fin S8x256x1x640.rank)
  bcast_S8x128x640_S8x1x128x640_0_2_3 : S8x128x640.BroadcastsInDim S8x1x128x640 (![0, 2, 3] : Fin 3 → Fin S8x1x128x640.rank)
  bcast_S8x256x1x640_S8x256x128x640_0_1_2_3 : S8x256x1x640.BroadcastsInDim S8x256x128x640 (![0, 1, 2, 3] : Fin 4 → Fin S8x256x128x640.rank)
  bcast_S8x1x128x640_S8x256x128x640_0_1_2_3 : S8x1x128x640.BroadcastsInDim S8x256x128x640 (![0, 1, 2, 3] : Fin 4 → Fin S8x256x128x640.rank)
  bcast_S1024_S1x1x1x1024_3 : S1024.BroadcastsInDim S1x1x1x1024 (![3] : Fin 1 → Fin S1x1x1x1024.rank)
  bcast_S1x1x1x1024_S8x256x128x1024_0_1_2_3 : S1x1x1x1024.BroadcastsInDim S8x256x128x1024 (![0, 1, 2, 3] : Fin 4 → Fin S8x256x128x1024.rank)
  dot_S8x256x512_S512x640_S8x256x640_2_0_01_1_n_n_wf : DotDims.WF S8x256x512 S512x640 S8x256x640 [2] [0] [0, 1] [1] [] []
  dot_S8x128x512_S512x640_S8x128x640_2_0_01_1_n_n_wf : DotDims.WF S8x128x512 S512x640 S8x128x640 [2] [0] [0, 1] [1] [] []
  dot_S8x256x128x640_S640x1024_S8x256x128x1024_3_0_012_1_n_n_wf : DotDims.WF S8x256x128x640 S640x1024 S8x256x128x1024 [3] [0] [0, 1, 2] [1] [] []

variable [Facts₀]

def dot_S8x256x512_S512x640_S8x256x640_2_0_01_1_n_n : DotDims S8x256x512 S512x640 S8x256x640 where
  lhsContracting := [2]
  rhsContracting := [0]
  lhsNonContracting := [0, 1]
  rhsNonContracting := [1]
  lhsBatch := []
  rhsBatch := []
  wf := dot_S8x256x512_S512x640_S8x256x640_2_0_01_1_n_n_wf
def dot_S8x128x512_S512x640_S8x128x640_2_0_01_1_n_n : DotDims S8x128x512 S512x640 S8x128x640 where
  lhsContracting := [2]
  rhsContracting := [0]
  lhsNonContracting := [0, 1]
  rhsNonContracting := [1]
  lhsBatch := []
  rhsBatch := []
  wf := dot_S8x128x512_S512x640_S8x128x640_2_0_01_1_n_n_wf
def dot_S8x256x128x640_S640x1024_S8x256x128x1024_3_0_012_1_n_n : DotDims S8x256x128x640 S640x1024 S8x256x128x1024 where
  lhsContracting := [3]
  rhsContracting := [0]
  lhsNonContracting := [0, 1, 2]
  rhsNonContracting := [1]
  lhsBatch := []
  rhsBatch := []
  wf := dot_S8x256x128x640_S640x1024_S8x256x128x1024_3_0_012_1_n_n_wf

class Facts : Prop extends Facts₀ where

variable [Facts]
-- ==== Proof.JoinerLayout.lean ====
/-
  The re-layouts the kernel body applies between its three matrix products, each read at an index given by coordinates.

  * a bias vector `[n]` laid out as one row `[1, n]` and repeated down `a` rows: entry `(p, i)` is the bias entry `i`;
  * the encoder projection `[8, 640]` given a middle axis of extent one, `[8, 1, 640]`, and repeated along it to
    `[8, 128, 640]`: entry `(p, u, i)` is entry `(p, i)`, whatever `u`;
  * the decoder projection `[128, 640]` given a leading axis of extent one, `[1, 128, 640]`, and repeated along it to
    `[8, 128, 640]`: entry `(p, u, i)` is entry `(u, i)`, whatever `p`;
  * the joined rows `[8, 128, 640]` flattened to a matrix `[1024, 640]`: row `128·p + u` is row `(p, u)`; and the product's
    result `[1024, 1024]` cut back into `[8, 128, 1024]` the same way.
  A shape cast keeps the row-major position, a broadcast reads coordinate `0` on an axis of extent one: each lemma is the
  library's read of one such operation with the operand's index named by its coordinates.
-/
import Idealize.ShloMosaic.Lib.Pipeline.Value
import Idealize.ShloMosaic.Lib.ValueIdx
import Idealize.ShloMosaic.Lib.ValueLayout

noncomputable section

namespace Cert.Joiner

open Idealize.ShloMosaic Idealize.ShloMosaic.ValueIdx

variable {α : Type}

/-- A vector `[n]` cast to one row `[1, n]` and repeated down `a` rows reads, at `(p, i)`, its entry `i`. -/
theorem bias_rows {a n : ℕ} (x : (⟨1, ![n]⟩ : Shape).Idx → α) (h1 : (⟨1, ![n]⟩ : Shape).ShapeCasts ⟨2, ![1, n]⟩)
    (h2 : (⟨2, ![1, n]⟩ : Shape).Broadcasts ⟨2, ![a, n]⟩) (p : Fin a) (i : Fin n) :
    broadcastTo ⟨2, ![a, n]⟩ (shapeCast ⟨2, ![1, n]⟩ x h1) h2 (ix2 p i) = x (ix1 i) := by
  rw [broadcastTo_1b_ab_apply, shapeCast_a_1a_apply]

/-- A matrix `[8, 640]` cast to `[8, 1, 640]` and repeated along the middle axis to `[8, 128, 640]` reads, at `(p, u, i)`,
    its entry `(p, i)`. -/
theorem repeat_mid (x : (⟨2, ![8, 640]⟩ : Shape).Idx → α) (h1 : (⟨2, ![8, 640]⟩ : Shape).ShapeCasts ⟨3, ![8, 1, 640]⟩)
    (h2 : (⟨3, ![8, 1, 640]⟩ : Shape).Broadcasts ⟨3, ![8, 128, 640]⟩) (p : Fin 8) (u : Fin 128) (i : Fin 640) :
    broadcastTo ⟨3, ![8, 128, 640]⟩ (shapeCast ⟨3, ![8, 1, 640]⟩ x h1) h2 (ix3 p u i) = x (ix2 p i) := by
  refine (broadcastTo_apply _ h2 (ix3 p u i) (ix3 p (0 : Fin 1) i) fun a => ?_).trans ?_
  · match a with
    | ⟨0, _⟩ => show p.val = if (8 : Nat) = 1 then 0 else p.val; rw [if_neg (by decide)]
    | ⟨1, _⟩ => show 0 = if (1 : Nat) = 1 then 0 else u.val; rw [if_pos rfl]
    | ⟨2, _⟩ => show i.val = if (640 : Nat) = 1 then 0 else i.val; rw [if_neg (by decide)]
  · exact shapeCast_apply x h1 _ (ix2 p i) (by
      rw [Shape.rowMajor_val_two, Shape.rowMajor_val_three]
      show p.val * 640 + i.val = (p.val * 1 + 0) * 640 + i.val
      omega)

/-- A matrix `[128, 640]` cast to `[1, 128, 640]` and repeated along the leading axis to `[8, 128, 640]` reads, at
    `(p, u, i)`, its entry `(u, i)`. -/
theorem repeat_lead (x : (⟨2, ![128, 640]⟩ : Shape).Idx → α) (h1 : (⟨2, ![128, 640]⟩ : Shape).ShapeCasts ⟨3, ![1, 128, 640]⟩)
    (h2 : (⟨3, ![1, 128, 640]⟩ : Shape).Broadcasts ⟨3, ![8, 128, 640]⟩) (p : Fin 8) (u : Fin 128) (i : Fin 640) :
    broadcastTo ⟨3, ![8, 128, 640]⟩ (shapeCast ⟨3, ![1, 128, 640]⟩ x h1) h2 (ix3 p u i) = x (ix2 u i) := by
  refine (broadcastTo_apply _ h2 (ix3 p u i) (ix3 (0 : Fin 1) u i) fun a => ?_).trans ?_
  · match a with
    | ⟨0, _⟩ => show 0 = if (1 : Nat) = 1 then 0 else p.val; rw [if_pos rfl]
    | ⟨1, _⟩ => show u.val = if (128 : Nat) = 1 then 0 else u.val; rw [if_neg (by decide)]
    | ⟨2, _⟩ => show i.val = if (640 : Nat) = 1 then 0 else i.val; rw [if_neg (by decide)]
  · exact shapeCast_ab_1ab_apply x h1 (0 : Fin 1) u i

/-- The joined rows `[8, 128, n]` flattened to `[1024, n]`: row `q = 128·p + u` is row `(p, u)`. -/
theorem flatten_rows {n : ℕ} (x : (⟨3, ![8, 128, n]⟩ : Shape).Idx → α) (h : (⟨3, ![8, 128, n]⟩ : Shape).ShapeCasts ⟨2, ![1024, n]⟩)
    (q : Fin 1024) (p : Fin 8) (u : Fin 128) (i : Fin n) (hq : q.val = p.val * 128 + u.val) :
    shapeCast ⟨2, ![1024, n]⟩ x h (ix2 q i) = x (ix3 p u i) :=
  shapeCast_apply x h _ _ (by
    rw [Shape.rowMajor_val_three, Shape.rowMajor_val_two]
    show (p.val * 128 + u.val) * n + i.val = q.val * n + i.val
    rw [hq])

/-- A matrix `[1024, n]` cut back into `[8, 128, n]`: row `(p, u)` is row `q = 128·p + u`. -/
theorem unflatten_rows {n : ℕ} (x : (⟨2, ![1024, n]⟩ : Shape).Idx → α) (h : (⟨2, ![1024, n]⟩ : Shape).ShapeCasts ⟨3, ![8, 128, n]⟩)
    (q : Fin 1024) (p : Fin 8) (u : Fin 128) (v : Fin n) (hq : q.val = p.val * 128 + u.val) :
    shapeCast ⟨3, ![8, 128, n]⟩ x h (ix3 p u v) = x (ix2 q v) :=
  shapeCast_apply x h _ _ (by
    rw [Shape.rowMajor_val_two, Shape.rowMajor_val_three]
    show q.val * n + v.val = (p.val * 128 + u.val) * n + v.val
    rw [hq])

end Cert.Joiner

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.JoinerBody.lean ====
/-
  The kernel body's arithmetic at one entry of the block it stores.

  At a grid point the body holds eight rows of the encoder states (`eb`, `[1, 8, 512]`), all 128 rows of one batch entry's
  decoder states (`db`, `[1, 128, 512]`), the three weight matrices and the three bias vectors, whole. It multiplies `eb` and
  `db` by their weights into zero accumulators, adds the biases row by row, adds every encoder row to every decoder row,
  applies tanh, flattens the `8 × 128` joined rows into `1024` rows, multiplies by the output weights into a zero
  accumulator, adds the output bias and cuts the `1024` rows back into `8 × 128`. Roundings to a shorter float format are
  the identity on the extended reals, and a product into a zero accumulator is the bare sum over the contracted axis. So
  the entry `(p, u, v)` of what it stores is
    `(∑ i, tanh ((∑ h, eb[0,p,h]·We[h,i] + be[i]) + (∑ h, db[0,u,h]·Wd[h,i] + bd[i])) · Wo[i,v]) + bo[v]`.
-/
import proofs.«159286_j25520695673368_1_alg».proof.Proof.Gen.KernelIdeal.Skeleton
import proofs.«159286_j25520695673368_1_alg».proof.Proof.JoinerLayout
import proofs.«159286_j25520695673368_1_alg».proof.Proof.LibPlainProduct
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The three matrix products, entry by entry

Each contracts the left operand's second axis against the right operand's first, so each is the plain product of
`Cert.PlainProduct.matmul_zero_entry`: what is checked here, per product, is only where its dimension numbers send the
output index `j` and the contraction index `q` — the left operand is read at `(j 0, q)`, the right at `(q, j 1)`. -/

/-- The eight encoder rows against the encoder weights: entry `(p, c)` is `∑ k, l[p, k] · r[k, c]`. -/
theorem enc_product (l : FVec Ideal S8x512 .bf16) (r : FVec Ideal S512x640 .bf16) (p : Fin 8) (c : Fin 640) :
    matmul dot_S8x512_S512x640_S8x640_1_0_0_1_n_n none l r (constant (F := Ideal) S8x640 .f32 0x00000000#32) (ix2 p c)
      = ∑ k : Fin 512, l (ix2 p k) * r (ix2 k c) :=
  Cert.PlainProduct.matmul_zero_entry dot_S8x512_S512x640_S8x640_1_0_0_1_n_n rfl rfl
    (fun j q => by
      unfold DotDims.lhsIdx
      rw [dif_neg (show ¬(0 : Fin S8x512.rank) ∈ dot_S8x512_S512x640_S8x640_1_0_0_1_n_n.lhsBatch by decide),
        dif_pos (show (0 : Fin S8x512.rank) ∈ dot_S8x512_S512x640_S8x640_1_0_0_1_n_n.lhsNonContracting by decide)]
      rfl)
    (fun j q => dot_S8x512_S512x640_S8x640_1_0_0_1_n_n.lhsIdx_val_of_single rfl j q)
    (fun j q => dot_S8x512_S512x640_S8x640_1_0_0_1_n_n.rhsIdx_val_of_single rfl j q)
    (fun j q => by
      unfold DotDims.rhsIdx
      rw [dif_neg (show ¬(1 : Fin S512x640.rank) ∈ dot_S8x512_S512x640_S8x640_1_0_0_1_n_n.rhsBatch by decide),
        dif_pos (show (1 : Fin S512x640.rank) ∈ dot_S8x512_S512x640_S8x640_1_0_0_1_n_n.rhsNonContracting by decide)]
      rfl)
    l r p c

/-- The 128 decoder rows against the decoder weights. -/
theorem dec_product (l : FVec Ideal S128x512 .bf16) (r : FVec Ideal S512x640 .bf16) (p : Fin 128) (c : Fin 640) :
    matmul dot_S128x512_S512x640_S128x640_1_0_0_1_n_n none l r (constant (F := Ideal) S128x640 .f32 0x00000000#32) (ix2 p c)
      = ∑ k : Fin 512, l (ix2 p k) * r (ix2 k c) :=
  Cert.PlainProduct.matmul_zero_entry dot_S128x512_S512x640_S128x640_1_0_0_1_n_n rfl rfl
    (fun j q => by
      unfold DotDims.lhsIdx
      rw [dif_neg (show ¬(0 : Fin S128x512.rank) ∈ dot_S128x512_S512x640_S128x640_1_0_0_1_n_n.lhsBatch by decide),
        dif_pos (show (0 : Fin S128x512.rank) ∈ dot_S128x512_S512x640_S128x640_1_0_0_1_n_n.lhsNonContracting by decide)]
      rfl)
    (fun j q => dot_S128x512_S512x640_S128x640_1_0_0_1_n_n.lhsIdx_val_of_single rfl j q)
    (fun j q => dot_S128x512_S512x640_S128x640_1_0_0_1_n_n.rhsIdx_val_of_single rfl j q)
    (fun j q => by
      unfold DotDims.rhsIdx
      rw [dif_neg (show ¬(1 : Fin S512x640.rank) ∈ dot_S128x512_S512x640_S128x640_1_0_0_1_n_n.rhsBatch by decide),
        dif_pos (show (1 : Fin S512x640.rank) ∈ dot_S128x512_S512x640_S128x640_1_0_0_1_n_n.rhsNonContracting by decide)]
      rfl)
    l r p c

/-- The 1024 flattened joined rows against the output weights. -/
theorem out_product (l : FVec Ideal S1024x640 .bf16) (r : FVec Ideal S640x1024 .bf16) (p : Fin 1024) (c : Fin 1024) :
    matmul dot_S1024x640_S640x1024_S1024x1024_1_0_0_1_n_n none l r (constant (F := Ideal) S1024x1024 .f32 0x00000000#32) (ix2 p c)
      = ∑ k : Fin 640, l (ix2 p k) * r (ix2 k c) :=
  Cert.PlainProduct.matmul_zero_entry dot_S1024x640_S640x1024_S1024x1024_1_0_0_1_n_n rfl rfl
    (fun j q => by
      unfold DotDims.lhsIdx
      rw [dif_neg (show ¬(0 : Fin S1024x640.rank) ∈ dot_S1024x640_S640x1024_S1024x1024_1_0_0_1_n_n.lhsBatch by decide),
        dif_pos (show (0 : Fin S1024x640.rank) ∈ dot_S1024x640_S640x1024_S1024x1024_1_0_0_1_n_n.lhsNonContracting by decide)]
      rfl)
    (fun j q => dot_S1024x640_S640x1024_S1024x1024_1_0_0_1_n_n.lhsIdx_val_of_single rfl j q)
    (fun j q => dot_S1024x640_S640x1024_S1024x1024_1_0_0_1_n_n.rhsIdx_val_of_single rfl j q)
    (fun j q => by
      unfold DotDims.rhsIdx
      rw [dif_neg (show ¬(1 : Fin S640x1024.rank) ∈ dot_S1024x640_S640x1024_S1024x1024_1_0_0_1_n_n.rhsBatch by decide),
        dif_pos (show (1 : Fin S640x1024.rank) ∈ dot_S1024x640_S640x1024_S1024x1024_1_0_0_1_n_n.rhsNonContracting by decide)]
      rfl)
    l r p c

/-! ## The stored block, entry by entry -/

/-- tanh applied entrywise, read at an entry. -/
theorem tanh_entry {s : Shape} {φ : FTy} (x : FVec Ideal s φ) (i : s.Idx) : tanh x i = Ideal.tanh (x i) := rfl

/-- Entry `(p, u, v)` of the value the body stores: the output layer's sum over the 640 joined entries of row `(p, u)`, each
    the tanh of encoder row `p`'s projection plus decoder row `u`'s, plus the output bias. -/
theorem block_entry (eb : Vec Ideal S1x8x512 .f32) (db : Vec Ideal S1x128x512 .f32) (We : Vec Ideal S512x640 .f32)
    (Wd : Vec Ideal S512x640 .f32) (Wo : Vec Ideal S640x1024 .f32) (be : Vec Ideal S640 .f32) (bd : Vec Ideal S640 .f32)
    (bo : Vec Ideal S1024 .f32) (p : Fin 8) (u : Fin 128) (v : Fin 1024) :
    k0_pay2 (F := Ideal) eb db We Wd Wo be bd bo (ix3 p u v)
      = (∑ i : Fin 640, Ideal.tanh (((∑ h : Fin 512, eb (ix3 (0 : Fin 1) p h) * We (ix2 h i)) + be (ix1 i))
            + ((∑ h : Fin 512, db (ix3 (0 : Fin 1) u h) * Wd (ix2 h i)) + bd (ix1 i))) * Wo (ix2 i v)) + bo (ix1 v) := by
  have hp := p.isLt
  have hu := u.isLt
  unfold k0_pay2
  refine (Cert.Joiner.unflatten_rows _ _ ⟨p.val * 128 + u.val, by omega⟩ p u v rfl).trans ?_
  rw [addf_apply, out_product, Cert.Joiner.bias_rows]
  refine congrArg (· + bo (ix1 v)) (Finset.sum_congr rfl fun i _ => ?_)
  rw [Cert.Joiner.flatten_rows _ _ ⟨p.val * 128 + u.val, by omega⟩ p u i rfl, truncf_apply, tanh_entry, addf_apply,
    Cert.Joiner.repeat_mid, Cert.Joiner.repeat_lead, addf_apply, addf_apply, enc_product, dec_product,
    Cert.Joiner.bias_rows, Cert.Joiner.bias_rows]
  simp only [truncf_apply, shapeCast_1ab_ab_apply]

end Cert.KernelIdeal.Body

end
-- ==== Proof.JoinerSpec.lean ====
/-
  The joint network of a transducer as ONE function of its eight argument arrays, index by index, on the extended reals.

  Two linear layers act on the last axis of the encoder states `enc[b, t, ·]` and of the decoder states `dec[b, u, ·]`:
    `proj x w β b r i = (∑ h, x[b, r, h] · w[h, i]) + β[i]`.
  Every pair (t, u) of one batch entry is joined by adding the two projected rows and applying tanh entrywise, and a third
  linear layer maps the joined row of width 640 to the 1024 output entries:
    `logit b t u v = (∑ i, tanh (proj enc … b t i + proj dec … b u i) · outW[i, v]) + outB[v]`.
  Nothing here needs an input to be finite: the sums, products and tanh are read as they stand on the extended reals, and
  both programs are shown to compute exactly this expression, summand by summand.
-/
import Idealize.ShloMosaic.PureOps.Ideal
import Idealize.ShloMosaic.Lib.ValueIdx

noncomputable section

namespace Cert.Joiner

open Idealize.ShloMosaic Idealize.ShloMosaic.ValueIdx

/-- A linear layer on the last axis of a stack of `R` rows per batch entry: row `(b, r)` of `x` against column `i` of
    the weights, plus the bias entry `i`. -/
def proj {R : Nat} (x : FVec Ideal ⟨3, ![8, R, 512]⟩ .f32) (w : FVec Ideal ⟨2, ![512, 640]⟩ .f32)
    (β : FVec Ideal ⟨1, ![640]⟩ .f32) (b : Fin 8) (r : Fin R) (i : Fin 640) : EReal :=
  (∑ h : Fin 512, x (ix3 b r h) * w (ix2 h i)) + β (ix1 i)

/-- The output entry for batch entry `b`, encoder step `t`, decoder step `u` and output column `v`. -/
def logit (enc : FVec Ideal ⟨3, ![8, 256, 512]⟩ .f32) (dec : FVec Ideal ⟨3, ![8, 128, 512]⟩ .f32)
    (encW : FVec Ideal ⟨2, ![512, 640]⟩ .f32) (encB : FVec Ideal ⟨1, ![640]⟩ .f32)
    (decW : FVec Ideal ⟨2, ![512, 640]⟩ .f32) (decB : FVec Ideal ⟨1, ![640]⟩ .f32)
    (outW : FVec Ideal ⟨2, ![640, 1024]⟩ .f32) (outB : FVec Ideal ⟨1, ![1024]⟩ .f32)
    (b : Fin 8) (t : Fin 256) (u : Fin 128) (v : Fin 1024) : EReal :=
  (∑ i : Fin 640, Ideal.tanh (proj enc encW encB b t i + proj dec decW decB b u i) * outW (ix2 i v)) + outB (ix1 v)

/-- The whole result array `[8, 256, 128, 1024]`. -/
def G (enc : FVec Ideal ⟨3, ![8, 256, 512]⟩ .f32) (dec : FVec Ideal ⟨3, ![8, 128, 512]⟩ .f32)
    (encW : FVec Ideal ⟨2, ![512, 640]⟩ .f32) (encB : FVec Ideal ⟨1, ![640]⟩ .f32)
    (decW : FVec Ideal ⟨2, ![512, 640]⟩ .f32) (decB : FVec Ideal ⟨1, ![640]⟩ .f32)
    (outW : FVec Ideal ⟨2, ![640, 1024]⟩ .f32) (outB : FVec Ideal ⟨1, ![1024]⟩ .f32) :
    FVec Ideal ⟨4, ![8, 256, 128, 1024]⟩ .f32 :=
  fun j => logit enc dec encW encB decW decB outW outB (j 0) (j 1) (j 2) (j 3)

theorem G_apply (enc : FVec Ideal ⟨3, ![8, 256, 512]⟩ .f32) (dec : FVec Ideal ⟨3, ![8, 128, 512]⟩ .f32)
    (encW : FVec Ideal ⟨2, ![512, 640]⟩ .f32) (encB : FVec Ideal ⟨1, ![640]⟩ .f32)
    (decW : FVec Ideal ⟨2, ![512, 640]⟩ .f32) (decB : FVec Ideal ⟨1, ![640]⟩ .f32)
    (outW : FVec Ideal ⟨2, ![640, 1024]⟩ .f32) (outB : FVec Ideal ⟨1, ![1024]⟩ .f32)
    (b : Fin 8) (t : Fin 256) (u : Fin 128) (v : Fin 1024) :
    G enc dec encW encB decW decB outW outB (ix4 b t u v) = logit enc dec encW encB decW decB outW outB b t u v := rfl

end Cert.Joiner

end
-- ==== Proof.JoinerBlocks.lean ====
/-
  From the blocks the kernel writes to the whole result array.

  The grid has `8 × 32` points. At point `(b, s)` the kernel reads rows `8s … 8s + 7` of batch entry `b` of the encoder states,
  all of batch entry `b` of the decoder states, and the weights and biases whole; it writes the block
  `[b, 8s … 8s + 7, all 128, all 1024]` of the result. The block indices of every window at every point are decided once
  over the grid (`index_facts`, `index_onto`).
  * What a point writes (`point_writes`): at block entry `(0, p, u, v)` the body's value is the joint network's function at
    `(b, 8s + p, u, v)` — the body's entry (`Body.block_entry`) with each loaded block read as the rows of its array that the
    window's index map selects.
  * The blocks tile the array (`covered`): the entry `(b, t, u, v)` lies in the block of the point with `s = t / 8`.
  So after the run the result array is the function everywhere.
-/
import proofs.«159286_j25520695673368_1_alg».proof.Proof.Gen.KernelIdeal.Value
import proofs.«159286_j25520695673368_1_alg».proof.Proof.JoinerBody
import proofs.«159286_j25520695673368_1_alg».proof.Proof.JoinerSpec
import Idealize.ShloMosaic.Lib.Pipeline.Value
import Idealize.ShloMosaic.Lib.ValueIdx
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-! ## The index maps over the grid -/

/-- At every point: the encoder window sits at the result block's batch entry and row block; the decoder window at its
    batch entry; the weights and biases at block zero; the result block spans its last two axes; and its batch entry and
    row block are in range. -/
theorem index_facts : ∀ t : Fin cfg0.N,
    win0_0.index t (0 : Fin 3) = win0_8.index t (0 : Fin 4) ∧ win0_0.index t (1 : Fin 3) = win0_8.index t (1 : Fin 4)
    ∧ win0_0.index t (2 : Fin 3) = 0
    ∧ win0_1.index t (0 : Fin 3) = win0_8.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (2 : Fin 4) = 0 ∧ win0_8.index t (3 : Fin 4) = 0
    ∧ win0_8.index t (0 : Fin 4) < 8 ∧ win0_8.index t (1 : Fin 4) < 32 :=
  (by decide +kernel : ∀ t : Fin grid0.N, _)

/-- Every batch entry and row block is some point's. -/
theorem index_onto : ∀ (b : Fin 8) (s : Fin 32), ∃ t : Fin cfg0.N,
    win0_8.index t (0 : Fin 4) = b.val ∧ win0_8.index t (1 : Fin 4) = s.val :=
  (by decide +kernel : ∀ (b : Fin 8) (s : Fin 32), ∃ t : Fin grid0.N,
    win0_8.index t (0 : Fin 4) = b.val ∧ win0_8.index t (1 : Fin 4) = s.val)

/-! ## The loaded blocks as rows of their arrays -/

/-- The encoder block at point `t`: row `p` is row `8s + p` of batch entry `b`, for the point's `(b, s)`. -/
theorem enc_block (c : Dev nD) (t : Fin cfg0.N) (p : Fin 8) (h : Fin 512) (b : Fin 8) (r : Fin 256)
    (hb : b.val = win0_8.index t (0 : Fin 4)) (hr : r.val = win0_8.index t (1 : Fin 4) * 8 + p.val) :
    (iblk m c 0 t : Vec Ideal S1x8x512 .f32) (ix3 (0 : Fin 1) p h)
      = (V m c main_arg0 : FVec Ideal S8x256x512 .f32) (ix3 b r h) := by
  obtain ⟨e0, e1, e2, -⟩ := index_facts t
  unfold iblk
  rw [View.read_apply]
  show V m c main_arg0 _ = V m c main_arg0 _
  congr 1
  funext a
  apply Fin.ext
  match a with
  | ⟨0, _⟩ => show win0_0.index t (0 : Fin 3) * 1 + 1 * 0 = b.val; omega
  | ⟨1, _⟩ => show win0_0.index t (1 : Fin 3) * 8 + 1 * p.val = r.val; omega
  | ⟨2, _⟩ => show win0_0.index t (2 : Fin 3) * 512 + 1 * h.val = h.val; omega

/-- The decoder block at point `t`: row `u` is row `u` of batch entry `b`. -/
theorem dec_block (c : Dev nD) (t : Fin cfg0.N) (u : Fin 128) (h : Fin 512) (b : Fin 8)
    (hb : b.val = win0_8.index t (0 : Fin 4)) :
    (iblk m c 1 t : Vec Ideal S1x128x512 .f32) (ix3 (0 : Fin 1) u h)
      = (V m c main_arg1 : FVec Ideal S8x128x512 .f32) (ix3 b u h) := by
  obtain ⟨-, -, -, e0, e1, e2, -⟩ := index_facts t
  unfold iblk
  rw [View.read_apply]
  show V m c main_arg1 _ = V m c main_arg1 _
  congr 1
  funext a
  apply Fin.ext
  match a with
  | ⟨0, _⟩ => show win0_1.index t (0 : Fin 3) * 1 + 1 * 0 = b.val; omega
  | ⟨1, _⟩ => show win0_1.index t (1 : Fin 3) * 128 + 1 * u.val = u.val; omega
  | ⟨2, _⟩ => show win0_1.index t (2 : Fin 3) * 512 + 1 * h.val = h.val; omega

/-- A weight matrix `[512, 640]` is loaded whole (the encoder's, window 2). -/
theorem encW_block (c : Dev nD) (t : Fin cfg0.N) (h : Fin 512) (i : Fin 640) :
    (iblk m c 2 t : Vec Ideal S512x640 .f32) (ix2 h i) = (V m c main_arg2 : FVec Ideal S512x640 .f32) (ix2 h i) := by
  obtain ⟨-, -, -, -, -, -, e0, e1, -⟩ := index_facts t
  unfold iblk
  rw [View.read_apply]
  show V m c main_arg2 _ = V m c main_arg2 _
  congr 1
  funext a
  apply Fin.ext
  match a with
  | ⟨0, _⟩ => show win0_2.index t (0 : Fin 2) * 512 + 1 * h.val = h.val; omega
  | ⟨1, _⟩ => show win0_2.index t (1 : Fin 2) * 640 + 1 * i.val = i.val; omega

/-- The encoder bias is loaded whole (window 3). -/
theorem encB_block (c : Dev nD) (t : Fin cfg0.N) (i : Fin 640) :
    (iblk m c 3 t : Vec Ideal S640 .f32) (ix1 i) = (V m c main_arg3 : FVec Ideal S640 .f32) (ix1 i) := by
  obtain ⟨-, -, -, -, -, -, -, -, e0, -⟩ := index_facts t
  unfold iblk
  rw [View.read_apply]
  show V m c main_arg3 _ = V m c main_arg3 _
  congr 1
  funext a
  apply Fin.ext
  match a with
  | ⟨0, _⟩ => show win0_3.index t (0 : Fin 1) * 640 + 1 * i.val = i.val; omega

/-- The decoder's weight matrix is loaded whole (window 4). -/
theorem decW_block (c : Dev nD) (t : Fin cfg0.N) (h : Fin 512) (i : Fin 640) :
    (iblk m c 4 t : Vec Ideal S512x640 .f32) (ix2 h i) = (V m c main_arg4 : FVec Ideal S512x640 .f32) (ix2 h i) := by
  obtain ⟨-, -, -, -, -, -, -, -, -, e0, e1, -⟩ := index_facts t
  unfold iblk
  rw [View.read_apply]
  show V m c main_arg4 _ = V m c main_arg4 _
  congr 1
  funext a
  apply Fin.ext
  match a with
  | ⟨0, _⟩ => show win0_4.index t (0 : Fin 2) * 512 + 1 * h.val = h.val; omega
  | ⟨1, _⟩ => show win0_4.index t (1 : Fin 2) * 640 + 1 * i.val = i.val; omega

/-- The decoder bias is loaded whole (window 5). -/
theorem decB_block (c : Dev nD) (t : Fin cfg0.N) (i : Fin 640) :
    (iblk m c 5 t : Vec Ideal S640 .f32) (ix1 i) = (V m c main_arg5 : FVec Ideal S640 .f32) (ix1 i) := by
  obtain ⟨-, -, -, -, -, -, -, -, -, -, -, e0, -⟩ := index_facts t
  unfold iblk
  rw [View.read_apply]
  show V m c main_arg5 _ = V m c main_arg5 _
  congr 1
  funext a
  apply Fin.ext
  match a with
  | ⟨0, _⟩ => show win0_5.index t (0 : Fin 1) * 640 + 1 * i.val = i.val; omega

/-- The output weights `[640, 1024]` are loaded whole (window 6). -/
theorem outW_block (c : Dev nD) (t : Fin cfg0.N) (i : Fin 640) (v : Fin 1024) :
    (iblk m c 6 t : Vec Ideal S640x1024 .f32) (ix2 i v) = (V m c main_arg6 : FVec Ideal S640x1024 .f32) (ix2 i v) := by
  obtain ⟨-, -, -, -, -, -, -, -, -, -, -, -, e0, e1, -⟩ := index_facts t
  unfold iblk
  rw [View.read_apply]
  show V m c main_arg6 _ = V m c main_arg6 _
  congr 1
  funext a
  apply Fin.ext
  match a with
  | ⟨0, _⟩ => show win0_6.index t (0 : Fin 2) * 640 + 1 * i.val = i.val; omega
  | ⟨1, _⟩ => show win0_6.index t (1 : Fin 2) * 1024 + 1 * v.val = v.val; omega

/-- The output bias is loaded whole (window 7). -/
theorem outB_block (c : Dev nD) (t : Fin cfg0.N) (v : Fin 1024) :
    (iblk m c 7 t : Vec Ideal S1024 .f32) (ix1 v) = (V m c main_arg7 : FVec Ideal S1024 .f32) (ix1 v) := by
  obtain ⟨-, -, -, -, -, -, -, -, -, -, -, -, -, -, e0, -⟩ := index_facts t
  unfold iblk
  rw [View.read_apply]
  show V m c main_arg7 _ = V m c main_arg7 _
  congr 1
  funext a
  apply Fin.ext
  match a with
  | ⟨0, _⟩ => show win0_7.index t (0 : Fin 1) * 1024 + 1 * v.val = v.val; omega

/-! ## What a point writes -/

/-- The joint network's function of the argument arrays as the region finds them on core `c`. -/
abbrev result (c : Dev nD) : FVec Ideal S8x256x128x1024 .f32 :=
  Cert.Joiner.G (V m c main_arg0) (V m c main_arg1) (V m c main_arg2) (V m c main_arg3) (V m c main_arg4) (V m c main_arg5)
    (V m c main_arg6) (V m c main_arg7)

/-- The body's value at block entry `(p, u, v)` at point `t` is the function at `(b, 8s + p, u, v)`. -/
theorem point_entry (c : Dev nD) (t : Fin cfg0.N) (p : Fin 8) (u : Fin 128) (v : Fin 1024) (b : Fin 8) (r : Fin 256)
    (hb : b.val = win0_8.index t (0 : Fin 4)) (hr : r.val = win0_8.index t (1 : Fin 4) * 8 + p.val) :
    k0_pay2 (F := Ideal) (iblk m c 0 t) (iblk m c 1 t) (iblk m c 2 t) (iblk m c 4 t) (iblk m c 6 t) (iblk m c 3 t)
        (iblk m c 5 t) (iblk m c 7 t) (ix3 p u v)
      = result m c (ix4 b r u v) := by
  refine (Body.block_entry (iblk m c 0 t) (iblk m c 1 t) (iblk m c 2 t) (iblk m c 4 t) (iblk m c 6 t) (iblk m c 3 t)
    (iblk m c 5 t) (iblk m c 7 t) p u v).trans ?_
  show _ = Cert.Joiner.logit (V m c main_arg0) (V m c main_arg1) (V m c main_arg2) (V m c main_arg3) (V m c main_arg4)
    (V m c main_arg5) (V m c main_arg6) (V m c main_arg7) b r u v
  unfold Cert.Joiner.logit Cert.Joiner.proj
  simp only [enc_block m c t p _ b r hb hr, dec_block m c t u _ b hb, encW_block m c t, encB_block m c t, decW_block m c t,
    decB_block m c t, outW_block m c t, outB_block m c t]

/-- WHAT POINT `t` WRITES BACK is block `t` of the function. -/
theorem point_writes (c : Dev nD) (t : Fin cfg0.N) :
    (dats m 0 c).flushed 8 t = ((cfg0.win 8).blk t).view.read (Elt Ideal) (result m c) := by
  rw [Value.flushed8]
  unfold out0_8
  rw [View.canon_unit_zero zero4]
  simp only [View.ld_unit_zero (S := S1x8x512) zero3, View.ld_unit_zero (S := S1x128x512) zero3,
    View.ld_unit_zero (S := S512x640) zero2, View.ld_unit_zero (S := S640x1024) zero2, View.ld_unit_zero (S := S640) zero1,
    View.ld_unit_zero (S := S1024) zero1]
  obtain ⟨-, -, -, -, -, -, -, -, -, -, -, -, -, -, -, e2, e3, l0, l1⟩ := index_facts t
  funext y
  obtain ⟨z, p, u, v, rfl⟩ : ∃ (z : Fin 1) (p : Fin 8) (u : Fin 128) (v : Fin 1024), y = ix4 z p u v :=
    ⟨y 0, y 1, y 2, y 3, eq_ix4 y⟩
  have hp := p.isLt
  have hz : z.val = 0 := by omega
  show k0_pay1 (k0_pay2 (F := Ideal) (iblk m c 0 t) (iblk m c 1 t) (iblk m c 2 t) (iblk m c 4 t) (iblk m c 6 t) (iblk m c 3 t)
      (iblk m c 5 t) (iblk m c 7 t)) (ix4 z p u v) = result m c (((cfg0.win 8).blk t).view.emb (ix4 z p u v))
  have hemb : ((cfg0.win 8).blk t).view.emb (ix4 z p u v)
      = ix4 (⟨win0_8.index t (0 : Fin 4), l0⟩ : Fin 8) (⟨win0_8.index t (1 : Fin 4) * 8 + p.val, by omega⟩ : Fin 256) u v := by
    funext a
    apply Fin.ext
    match a with
    | ⟨0, _⟩ => show win0_8.index t (0 : Fin 4) * 1 + 1 * z.val = win0_8.index t (0 : Fin 4); omega
    | ⟨1, _⟩ => show win0_8.index t (1 : Fin 4) * 8 + 1 * p.val = win0_8.index t (1 : Fin 4) * 8 + p.val; omega
    | ⟨2, _⟩ => show win0_8.index t (2 : Fin 4) * 128 + 1 * u.val = u.val; omega
    | ⟨3, _⟩ => show win0_8.index t (3 : Fin 4) * 1024 + 1 * v.val = v.val; omega
  rw [hemb]
  unfold k0_pay1
  refine (shapeCast_abc_1abc_apply _ _ z p u v).trans ?_
  exact point_entry m c t p u v _ _ rfl rfl

/-! ## The blocks tile the array -/

/-- An index of the result array is in point `t`'s block iff each coordinate is in the block's range on its axis. -/
theorem mem_block (t : Fin cfg0.N) (i : S8x256x128x1024.Idx) :
    i ∈ ((cfg0.win 8).blk t).view.set ↔ ∀ a : Fin 4, win0_8.index t a * S1x8x128x1024.size a ≤ (i a).val
      ∧ (i a).val < win0_8.index t a * S1x8x128x1024.size a + S1x8x128x1024.size a := by
  show i ∈ ((View.whole main_v0).slice (win0_8.rect t)).set ↔ _
  rw [View.set_slice_whole, Rect.mem_set_unit]
  exact Iff.rfl

/-- Every index of the result array is in the block of a point that writes back: the one whose batch entry is the index's
    and whose row block holds its row. -/
theorem covered (i : S8x256x128x1024.Idx) :
    ∃ t : Fin cfg0.N, (cfg0.win 8).flush t = true ∧ i ∈ ((cfg0.win 8).blk t).view.set := by
  have h0 : (i 0).val < 8 := (i 0).isLt
  have h1 : (i 1).val < 256 := (i 1).isLt
  have h2 : (i 2).val < 128 := (i 2).isLt
  have h3 : (i 3).val < 1024 := (i 3).isLt
  obtain ⟨t, q0, q1⟩ := index_onto ⟨(i 0).val, h0⟩ ⟨(i 1).val / 8, by omega⟩
  obtain ⟨-, -, -, -, -, -, -, -, -, -, -, -, -, -, -, e2, e3, -, -⟩ := index_facts t
  have q0' : win0_8.index t (0 : Fin 4) = (i 0).val := q0
  have q1' : win0_8.index t (1 : Fin 4) = (i 1).val / 8 := q1
  refine ⟨t, flush0_8 t, ?_⟩
  rw [mem_block]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 8 ≤ (i 1).val ∧ (i 1).val < win0_8.index t (1 : Fin 4) * 8 + 8; omega
  | ⟨2, _⟩ => show win0_8.index t (2 : Fin 4) * 128 ≤ (i 2).val ∧ (i 2).val < win0_8.index t (2 : Fin 4) * 128 + 128; omega
  | ⟨3, _⟩ => show win0_8.index t (3 : Fin 4) * 1024 ≤ (i 3).val ∧ (i 3).val < win0_8.index t (3 : Fin 4) * 1024 + 1024; omega

/-! ## The array after the run, and the run -/

/-- After the run the result array is the joint network's function of the argument arrays. -/
theorem final (c : Dev nD) : (dats m 0 c).arrAt 8 cfg0.N = result m c :=
  (dats m 0 c).arrAt_eq_of_cover 8 (result m c) (fun t _ => point_writes m c t) covered

/-- The kernel's run, read: the result at the function of the launch contents of the arguments, the arguments unchanged. -/
theorem run : θ_run defs (onTc (τ := τ) (main (F := Ideal))) ⟨m, fun _ => 0, ρ⟩ fun r => ∀ c : Dev nD,
      r.2.mem ((c : Thread nD τ).loc main_v0)
        = Cert.Joiner.G (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Blocks

end
-- ==== Proof.JoinerRef.lean ====
/-
  The reference computes the joint network's function.

  Its program is eighteen array operations: two contractions of the states' last axis with the weights, each followed by
  the bias repeated over the leading axes; the two projected arrays given a unit axis and repeated against each other to
  `[8, 256, 128, 640]`; their sum; tanh; a contraction of the last axis with the output weights; the output bias repeated;
  the final sum. Read at the output index `(b, t, u, v)`, every repeat reads coordinate `0` on the axis it repeats along
  and passes the other coordinates through, and every contraction is the sum over the contracted coordinate. Following
  the index through the operations gives `logit … b t u v` term for term; the host's tanh and the host's sum are the
  extended reals' tanh and `+`.
-/
import proofs.«159286_j25520695673368_1_alg».proof.Proof.Gen.ReferenceIdeal.Read
import proofs.«159286_j25520695673368_1_alg».proof.Proof.JoinerSpec

noncomputable section

namespace Cert.ReferenceIdeal.RefValue

open Cert.ReferenceIdeal Cert.ReferenceIdeal.Read Idealize.ShloMosaic Idealize.ShloMosaic.ValueIdx

/-! ## Where each operation reads its operand, by coordinates -/

section Indices
variable (b : Fin 8) (t : Fin 256) (u : Fin 128) (v : Fin 1024) (i : Fin 640) (h : Fin 512)

/-- The output contraction at `(b, t, u, v)` and contracted coordinate `i` reads the joined array at `(b, t, u, i)` … -/
theorem at_out_l : lidx_main_v14 (ix4 b t u v) i = ix4 b t u i :=
  funext fun a => Fin.ext (by match a with | ⟨0, _⟩ => rfl | ⟨1, _⟩ => rfl | ⟨2, _⟩ => rfl | ⟨3, _⟩ => rfl)
/-- … and the output weights at `(i, v)`. -/
theorem at_out_r : ridx_main_v14 (ix4 b t u v) i = ix2 i v :=
  funext fun a => Fin.ext (by match a with | ⟨0, _⟩ => rfl | ⟨1, _⟩ => rfl)
/-- The encoder side repeated along the decoder axis reads decoder coordinate `0` … -/
theorem at_enc_rep : idx_main_v10 (ix4 b t u i) = ix4 b t (0 : Fin 1) i :=
  funext fun a => Fin.ext (by match a with | ⟨0, _⟩ => rfl | ⟨1, _⟩ => rfl | ⟨2, _⟩ => rfl | ⟨3, _⟩ => rfl)
/-- … of the projected encoder array with that unit axis inserted. -/
theorem at_enc_unit : idx_main_v8 (ix4 b t (0 : Fin 1) i) = ix3 b t i :=
  funext fun a => Fin.ext (by match a with | ⟨0, _⟩ => rfl | ⟨1, _⟩ => rfl | ⟨2, _⟩ => rfl)
/-- The encoder contraction at `(b, t, i)` and `h` reads the states at `(b, t, h)` and the weights at `(h, i)`. -/
theorem at_enc_l : lidx_main_v0 (ix3 b t i) h = ix3 b t h :=
  funext fun a => Fin.ext (by match a with | ⟨0, _⟩ => rfl | ⟨1, _⟩ => rfl | ⟨2, _⟩ => rfl)
theorem at_enc_r : ridx_main_v0 (ix3 b t i) h = ix2 h i :=
  funext fun a => Fin.ext (by match a with | ⟨0, _⟩ => rfl | ⟨1, _⟩ => rfl)
/-- The encoder bias repeated over batch and time reads `(0, 0, i)` of its `[1, 1, 640]` form, which reads entry `i`. -/
theorem at_enc_bias_rep : idx_main_v2 (ix3 b t i) = ix3 (0 : Fin 1) (0 : Fin 1) i :=
  funext fun a => Fin.ext (by match a with | ⟨0, _⟩ => rfl | ⟨1, _⟩ => rfl | ⟨2, _⟩ => rfl)
theorem at_enc_bias : idx_main_v1 (ix3 (0 : Fin 1) (0 : Fin 1) i) = ix1 i :=
  funext fun a => Fin.ext (by match a with | ⟨0, _⟩ => rfl)
/-- The decoder side repeated along the encoder axis reads encoder coordinate `0` … -/
theorem at_dec_rep : idx_main_v11 (ix4 b t u i) = ix4 b (0 : Fin 1) u i :=
  funext fun a => Fin.ext (by match a with | ⟨0, _⟩ => rfl | ⟨1, _⟩ => rfl | ⟨2, _⟩ => rfl | ⟨3, _⟩ => rfl)
/-- … of the projected decoder array with that unit axis inserted. -/
theorem at_dec_unit : idx_main_v9 (ix4 b (0 : Fin 1) u i) = ix3 b u i :=
  funext fun a => Fin.ext (by match a with | ⟨0, _⟩ => rfl | ⟨1, _⟩ => rfl | ⟨2, _⟩ => rfl)
/-- The decoder contraction at `(b, u, i)` and `h` reads the states at `(b, u, h)` and the weights at `(h, i)`. -/
theorem at_dec_l : lidx_main_v4 (ix3 b u i) h = ix3 b u h :=
  funext fun a => Fin.ext (by match a with | ⟨0, _⟩ => rfl | ⟨1, _⟩ => rfl | ⟨2, _⟩ => rfl)
theorem at_dec_r : ridx_main_v4 (ix3 b u i) h = ix2 h i :=
  funext fun a => Fin.ext (by match a with | ⟨0, _⟩ => rfl | ⟨1, _⟩ => rfl)
theorem at_dec_bias_rep : idx_main_v6 (ix3 b u i) = ix3 (0 : Fin 1) (0 : Fin 1) i :=
  funext fun a => Fin.ext (by match a with | ⟨0, _⟩ => rfl | ⟨1, _⟩ => rfl | ⟨2, _⟩ => rfl)
theorem at_dec_bias : idx_main_v5 (ix3 (0 : Fin 1) (0 : Fin 1) i) = ix1 i :=
  funext fun a => Fin.ext (by match a with | ⟨0, _⟩ => rfl)
/-- The output bias repeated over batch, time and decoder step reads `(0, 0, 0, v)` of its `[1, 1, 1, 1024]` form, which
    reads entry `v`. -/
theorem at_out_bias_rep : idx_main_v16 (ix4 b t u v) = ix4 (0 : Fin 1) (0 : Fin 1) (0 : Fin 1) v :=
  funext fun a => Fin.ext (by match a with | ⟨0, _⟩ => rfl | ⟨1, _⟩ => rfl | ⟨2, _⟩ => rfl | ⟨3, _⟩ => rfl)
theorem at_out_bias : idx_main_v15 (ix4 (0 : Fin 1) (0 : Fin 1) (0 : Fin 1) v) = ix1 v :=
  funext fun a => Fin.ext (by match a with | ⟨0, _⟩ => rfl)

end Indices

/-! ## The reference's last stage is the joint network's function -/

/-- The value the reference's last operation writes is `Cert.Joiner.G` of the eight arguments. -/
theorem ref_eq (x0 : (⟨S8x256x512, .f32⟩ : BufTy).Contents (Elt Ideal)) (x1 : (⟨S8x128x512, .f32⟩ : BufTy).Contents (Elt Ideal))
    (x2 : (⟨S512x640, .f32⟩ : BufTy).Contents (Elt Ideal)) (x3 : (⟨S640, .f32⟩ : BufTy).Contents (Elt Ideal))
    (x4 : (⟨S512x640, .f32⟩ : BufTy).Contents (Elt Ideal)) (x5 : (⟨S640, .f32⟩ : BufTy).Contents (Elt Ideal))
    (x6 : (⟨S640x1024, .f32⟩ : BufTy).Contents (Elt Ideal)) (x7 : (⟨S1024, .f32⟩ : BufTy).Contents (Elt Ideal)) :
    val_main_v17 (F := Ideal) x0 x1 x2 x3 x4 x5 x6 x7 = Cert.Joiner.G x0 x1 x2 x3 x4 x5 x6 x7 := by
  funext j
  obtain ⟨b, t, u, v, rfl⟩ : ∃ (b : Fin 8) (t : Fin 256) (u : Fin 128) (v : Fin 1024), j = ix4 b t u v :=
    ⟨j 0, j 1, j 2, j 3, eq_ix4 j⟩
  rw [Cert.Joiner.G_apply]
  unfold Cert.Joiner.logit Cert.Joiner.proj
  simp only [val_main_v17_apply, val_main_v14_apply, val_main_v13_apply, val_main_v12_apply, val_main_v10_apply,
    val_main_v8_apply, val_main_v3_apply, val_main_v0_apply, val_main_v2_apply, val_main_v1_apply, val_main_v11_apply,
    val_main_v9_apply, val_main_v7_apply, val_main_v4_apply, val_main_v6_apply, val_main_v5_apply, val_main_v16_apply,
    val_main_v15_apply, at_out_l, at_out_r, at_enc_rep, at_enc_unit, at_enc_l, at_enc_r, at_enc_bias_rep, at_enc_bias,
    at_dec_rep, at_dec_unit, at_dec_l, at_dec_r, at_dec_bias_rep, at_dec_bias, at_out_bias_rep, at_out_bias]
  rfl

end Cert.ReferenceIdeal.RefValue

end
-- ==== Proof.lean ====
/-
  A transducer's joint network, tiled over batch entries and blocks of eight encoder steps, against the same network
  written with whole-array contractions: both compute, at every output index `(b, t, u, v)`,

    `(∑ i, tanh ((∑ h, enc[b,t,h]·encW[h,i] + encB[i]) + (∑ h, dec[b,u,h]·decW[h,i] + decB[i])) · outW[i,v]) + outB[v]`

  on the extended reals (`Cert.Joiner.G`, Proof/JoinerSpec.lean).
  * The kernel: at each of its `8 × 32` grid points it forms this expression for eight encoder steps of one batch entry
    from the rows it has loaded (Proof/JoinerBody.lean: three matrix products into zero accumulators are bare sums, the
    roundings to a shorter format are the identity, the flattening of the `8 × 128` joined rows to `1024` rows and back is a
    renaming of the row index), and the blocks written at the grid points tile the result (Proof/JoinerBlocks.lean).
  * The reference: eighteen whole-array operations, which read at an index follow it to the same expression
    (Proof/JoinerRef.lean).
  The two sides agree summand by summand, so no input needs to be finite and the precondition is never opened. The ideal
  pass rewrote nothing, so the kernel's idealization is its own text and `preserves` has nothing to state. The three frames
  are the generated frame runs of the two kernel programs and the reference's generated run with its result dropped.
-/
import proofs.«159286_j25520695673368_1_alg».proof.Defs
import proofs.«159286_j25520695673368_1_alg».proof.Proof.Gen.Kernel
import proofs.«159286_j25520695673368_1_alg».proof.Proof.Gen.Kernel.Skeleton
import proofs.«159286_j25520695673368_1_alg».proof.Proof.Gen.Kernel.Launch
import proofs.«159286_j25520695673368_1_alg».proof.Proof.Gen.Kernel.Points
import proofs.«159286_j25520695673368_1_alg».proof.Proof.Gen.Kernel.Frame
import proofs.«159286_j25520695673368_1_alg».proof.Proof.Gen.KernelIdeal
import proofs.«159286_j25520695673368_1_alg».proof.Proof.Gen.KernelIdeal.Skeleton
import proofs.«159286_j25520695673368_1_alg».proof.Proof.Gen.KernelIdeal.Launch
import proofs.«159286_j25520695673368_1_alg».proof.Proof.Gen.KernelIdeal.Points
import proofs.«159286_j25520695673368_1_alg».proof.Proof.Gen.KernelIdeal.Frame
import proofs.«159286_j25520695673368_1_alg».proof.Proof.Gen.ReferenceIdeal
import proofs.«159286_j25520695673368_1_alg».proof.Proof.Gen.Pre_finite_inputs
import proofs.«159286_j25520695673368_1_alg».proof.Proof.Gen.KernelIdeal.Value
import proofs.«159286_j25520695673368_1_alg».proof.Proof.Gen.ReferenceIdeal.Run
import proofs.«159286_j25520695673368_1_alg».proof.Proof.Gen.ReferenceIdeal.Read
import proofs.«159286_j25520695673368_1_alg».proof.Proof.JoinerBlocks
import proofs.«159286_j25520695673368_1_alg».proof.Proof.JoinerRef
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the eight arguments, the kernel's result array ends at the joint network's function of
    its arguments (Proof/JoinerBlocks.lean) and the reference's at the same function of its own (its generated run, whose
    term is that function: Proof/JoinerRef.lean). -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v17_eq, Cert.ReferenceIdeal.RefValue.ref_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
